-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .f32⟩
  | .hbm, ⟨5, _⟩ => ⟨S8192x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x2048_S8x1024x2048 : S8192x2048.ShapeCasts S8x1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S8x1024x2048_S8192x2048 : S8x1024x2048.ShapeCasts S8192x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x1024x2048.size a
  hwx0_4 : ∀ i : grid0.Coords, EltTy.bits .f32 = 32 ∨ (Rect.block (s := S8x1024x2048) S1x1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.K.Points.lean ====
/-
  The grid of the expert layer's kernel, point by point: what the region finds in the arrays it stages, which block of
  each array a point works on, and at which points the output block is reset.

  The grid is (expert e, inner tile s), 8 × 16 = 128 points in row-major order, so point t is expert t / 16 at tile
  t % 16. The token block of expert e (window 0) and its output block (window 4) do not move while s runs; the gate
  tile s and the up tile 16 + s of the joint gate/up matrix (windows 1 and 2, two windows on ONE array) and the down
  tile s (window 3) move at every point. The output block is zero-filled exactly at the points with t % 16 = 0.
-/
import proofs.«105637_j8332236554875_2_alg».proof.Proof.Gen.Kernel.Launch
import proofs.«105637_j8332236554875_2_alg».proof.Proof.Gen.Kernel.Skeleton
import proofs.«105637_j8332236554875_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host line before it (the token
    matrix re-laid as one slab per expert). -/
abbrev V0 (c : Dev nD) : Valuation τ sig (Elt F) := StableHlo.after ([hostOps0 (F := F)].flatten) (fun b => m (c, b))

abbrev V (c : Dev nD) (b : Ref sig .tc) : Buf (Elt F) ((c : Thread nD τ).loc b) := V0 m c (Proc.devRef .tc b)

/-- The host line before the region writes only the re-laid token slab: the two weight arrays are as launched. -/
theorem V_main_arg1 (c : Dev nD) : V m c main_arg1 = m ((c : Thread nD τ).loc main_arg1) := by
  dsimp only [V, V0]
  simp only [hostOps0, List.flatten_cons, List.flatten_nil, List.append_nil]
  after_results

theorem V_main_arg2 (c : Dev nD) : V m c main_arg2 = m ((c : Thread nD τ).loc main_arg2) := by
  dsimp only [V, V0]
  simp only [hostOps0, List.flatten_cons, List.flatten_nil, List.append_nil]
  after_results

theorem V_main_arg0 (c : Dev nD) : V m c main_arg0 = m ((c : Thread nD τ).loc main_arg0) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place: unfetched, the block index has not
    moved. The four input windows are uncut and never idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The reset condition -/

/-- The condition of the body's one branch, from the grid coordinates: the inner-tile coordinate is zero. -/
abbrev isFirst (i : grid0.Coords) : Prop := (Scalar.cmpi .ne (Scalar.extui (Scalar.cmpi .eq (BitVec.ofNat 32 (i 1).val) 0#32)) 0#32) = 1#1

/-- It holds exactly at the first tile of each expert — decided over the 128 points. -/
theorem isFirst_iff : ∀ t : Fin cfg0.N, isFirst (grid0.coords t) ↔ t.val % 16 = 0 :=
  (by decide +kernel : ∀ t : Fin grid0.N, isFirst (grid0.coords t) ↔ t.val % 16 = 0)

/-! ## The staging memrefs the body is called with -/

/-- One staging buffer of the output window, through which its contents are stated. -/
abbrev VO : View sig .tc .vmem S1x1024x2048 .f32 := (Memref.whole cc0_stg4_0 : Memref sig .tc .vmem S1x1024x2048 .f32).view

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x2048 .f32 := win0_4.stage (cfg0.slots t 4)
abbrev hs4 (t : Fin cfg0.N) : (ms4 t).IsWhole := hstage0_4 ((cfg0.slots t 4).cast nbuf0_4)

end Cert.Kernel.Frame

end
-- ==== Proof.K.RunFirst.lean ====
/-
  The kernel body run at a first tile of an expert.
-/
import proofs.«105637_j8332236554875_2_alg».proof.Proof.K.Points

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a FIRST tile (the inner-tile coordinate is zero): the output block is zero-filled, then the step's
    product is added to it. The four input buffers are held at their contents and handed back unchanged; the output
    buffer is found holding anything and left with the pieces the two stores wrote (last first). -/
noncomputable def runFirst (c : Dev nD) (i : grid0.Coords)
    (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame

end
-- ==== Proof.K.RunLater.lean ====
/-
  The kernel body run at a later tile of an expert.
-/
import proofs.«105637_j8332236554875_2_alg».proof.Proof.K.RunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a LATER tile (the inner-tile coordinate is not zero): no reset; the step's product is added to what the
    output buffer holds (`xo`, what the tile before left). The four input buffers are held at their contents and
    handed back unchanged; the output buffer is left with the piece the one store wrote. -/
noncomputable def runLater (c : Dev nD) (i : grid0.Coords)
    (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame

end
-- ==== Proof.K.Data.lean ====
/-
  What the output block holds after each grid point, the pipeline's proof data, and the body obligation.

  At a first tile the body zero-fills the output block and adds the tile's product; at a later tile it adds the tile's
  product to what the tile before left. The output block's staging buffer is written back only after an expert's last
  tile (t % 16 = 15), so between the tiles of one expert the buffer carries the running sum.
-/
import proofs.«105637_j8332236554875_2_alg».proof.Proof.K.RunLater

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores of a first tile tile the output block, so they cover it. -/
theorem coverFirst (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) (y : S1x1024x2048.Idx) :
    ∃ pc ∈ (runFirst c i arg2 harg2 arg3 harg3 arg4 harg4 arg5 harg5 arg6 harg6 hc0 x0 x1 x2 x3).1, y ∈ pc.1.set :=
  View.cover_of_tiledL (runFirst c i arg2 harg2 arg3 harg3 arg4 harg4 arg5 harg5 arg6 harg6 hc0 x0 x1 x2 x3).1 S1x1024x2048.size (by sl_kernel_rfl) y

/-- What a first tile leaves in the output block's staging buffer: its pieces read back. -/
def outFirst (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) : Vec F S1x1024x2048 .f32 :=
  VO.read (Elt F) (VO.writes (Elt F) VO.junk (runFirst c i arg2 harg2 arg3 harg3 arg4 harg4 arg5 harg5 arg6 harg6 hc0 x0 x1 x2 x3).1)

/-- The one store of a later tile covers the output block. -/
theorem coverLater (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) (y : S1x1024x2048.Idx) :
    ∃ pc ∈ (runLater c i arg2 harg2 arg3 harg3 arg4 harg4 arg5 harg5 arg6 harg6 hc0 x0 x1 x2 x3 xo).1, y ∈ pc.1.set :=
  View.cover_of_tiledL (runLater c i arg2 harg2 arg3 harg3 arg4 harg4 arg5 harg5 arg6 harg6 hc0 x0 x1 x2 x3 xo).1 S1x1024x2048.size (by sl_kernel_rfl) y

/-- What a later tile leaves in the output block's staging buffer, over what the tile before left (`xo`). -/
def outLater (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) : Vec F S1x1024x2048 .f32 :=
  VO.read (Elt F) (VO.writes (Elt F) VO.junk (runLater c i arg2 harg2 arg3 harg3 arg4 harg4 arg5 harg5 arg6 harg6 hc0 x0 x1 x2 x3 xo).1)

/-! ## What the output block holds after each point -/

/-- THE ACCUMULATION. What the output block's staging buffer holds after the body at position `n`: at a first tile
    the reset-and-add of the point's input blocks, at a later tile the add over what position `n - 1` left. -/
def outsAt (c : Dev nD) : (n : ℕ) → n < cfg0.N → Vec F S1x1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at a first tile. -/
theorem outsAt_first (c : Dev nD) (t : Fin cfg0.N) (h0 : t.val % 16 = 0) :
    outsAt m c t.val t.isLt = outFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later tile: over what the point before left. -/
theorem outsAt_later (c : Dev nD) (t : Fin cfg0.N) (h0 : ¬t.val % 16 = 0) :
    outsAt m c t.val t.isLt = outLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt`; the invariant the scoped rest and the random-number
    register; nothing owed. The joint gate/up matrix is read through two windows: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-- At a later tile the output block's staging buffer holds what the body left at the point before: the buffer was not
    written back between (write-backs follow an expert's last tile only), the window is live and uncut. -/
theorem before_4_later (c : Dev nD) (t : Fin cfg0.N) (h0 : ¬t.val % 16 = 0) (d) :
    (dats m 0 c).before 4 t d = (outsAt m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the closed form of the reset condition says which
    case the point is in; at a later tile the output's buffer holds what the point before left; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 128 := lt_of_lt_of_eq t.isLt (show cfg0.N = 128 from N_0)
  by_cases h0 : t.val % 16 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.K.Launch.lean ====
/-
  The run of the expert layer's program around its one kernel region. The kernel reads the joint gate/up matrix through
  TWO windows (the gate tile and the up tile of one array), so the array's ownership is dealt between them at the
  region's entry — each window holds half of it for the whole region, which is enough because input windows are only
  read. Around the region @main re-lays the token matrix as one slab per expert (before) and the result slab as the
  result matrix (after).
-/
import proofs.«105637_j8332236554875_2_alg».proof.Proof.K.Data

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline
open Idealize.SL.BI (bigSepL bigSep_univ_eq_bigSepL bigSep_eq_bigSepL_of_eq)

/-! ## The windows' arrays, dealt -/

/-- The windows' holdings of their arrays, one by one: the token slab, the two halves of the joint gate/up matrix, the
    down matrix, the result slab. -/
theorem arrays_chain (c : Dev nD) (Fa : (w : Fin cfg0.W) → Buf (Elt F) ((cfg0.win w).arr.view.loc (c.tc : Thread nD τ))) :
    ((dats m 0 c).arrays Fa : sProp 𝕄) = iprop(
      (((c.tc : Thread nD τ).loc main_v0) ↦{fullShare} Fa 0) ∗ (((c.tc : Thread nD τ).loc main_arg1) ↦{fullShare.left} Fa 1)
      ∗ (((c.tc : Thread nD τ).loc main_arg1) ↦{fullShare.right} Fa 2)
      ∗ (((c.tc : Thread nD τ).loc main_arg2) ↦{fullShare} Fa 3) ∗ (((c.tc : Thread nD τ).loc main_v1) ↦{fullShare} Fa 4)) := by
  unfold Dat.arrays
  rw [show (bigSep Finset.univ fun w : Fin cfg0.W => ((cfg0.win w).arr.view.loc (c.tc : Thread nD τ) ↦[(cfg0.win w).arr.view.set]{(dats m 0 c).share w} Fa w : sProp 𝕄))
      = bigSep Finset.univ fun w : Fin cfg0.W => ((cfg0.win w).arr.view.loc (c.tc : Thread nD τ) ↦{(dats m 0 c).share w} Fa w : sProp 𝕄)
      from bigSep_congr fun w _ => by rw [(arr_whole0 w).set_eq_univ], bigSep_W0]
  rfl

/-- The four distinct buffers behind the five windows, each whole. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄) = iprop(
      (((c.tc : Thread nD τ).loc main_v0) ↦{fullShare} W main_v0) ∗ (((c.tc : Thread nD τ).loc main_arg1) ↦{fullShare} W main_arg1)
      ∗ (((c.tc : Thread nD τ).loc main_arg2) ↦{fullShare} W main_arg2) ∗ (((c.tc : Thread nD τ).loc main_v1) ↦{fullShare} W main_v1)) := by
  unfold Pipeline.arrBufs
  rw [bigSep_eq_bigSepL_of_eq [main_v0, main_arg1, main_arg2, main_v1] (by decide) (by decide)]
  rfl

/-- At entry the joint gate/up matrix, held whole, is split between the two windows that read it; every other array
    goes whole to its one window. -/
theorem arrays_deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_chain, arrBufs_chain]
  iintro ⟨H0, H1, H2, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  isplitl [H2]; · iexact H2
  iexact H3

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host line before the region, the region, the host line after it: it reduces to the region continued
    by the later line, at the contents after the earlier one. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The host line after the region -/

/-- The two buffers the last host line touches: the result slab it reads and the result matrix it writes. -/
def tailBufs : Finset (DevRef τ sig) := {Proc.devRef .tc main_v1, Proc.devRef .tc main_v2}

theorem tailBufs_held (c : Dev nD) (W : Valuation τ sig (Elt F)) : (StableHlo.held (c.tc : Thread nD τ) tailBufs W : sProp 𝕄)
    = iprop((((c.tc : Thread nD τ).loc main_v1) ↦{fullShare} W (Proc.devRef .tc main_v1))
        ∗ (((c.tc : Thread nD τ).loc main_v2) ↦{fullShare} W (Proc.devRef .tc main_v2))) := by
  unfold StableHlo.held
  rw [bigSep_eq_bigSepL_of_eq [Proc.devRef .tc main_v1, Proc.devRef .tc main_v2] (by decide) (by decide)]
  rfl

/-- The buffers as the region leaves them: the result slab at what the write-backs made of it, the rest as entered. -/
abbrev Vexit (c : Dev nD) : Valuation τ sig (Elt F) :=
  Function.update (V0 m c) (Proc.devRef .tc main_v1) ((dats m 0 c).arrAt 4 cfg0.N)

/-- And after the last host line. -/
abbrev Vend (c : Dev nD) : Valuation τ sig (Elt F) := StableHlo.after (hostOps1 (F := F)) (Vexit m c)

theorem Vexit_v1 (c : Dev nD) : Vexit m c (Proc.devRef .tc main_v1) = (dats m 0 c).arrAt 4 cfg0.N := Function.update_self ..
theorem Vexit_v2 (c : Dev nD) : Vexit m c (Proc.devRef .tc main_v2) = V m c main_v2 := Function.update_of_ne (by decide) ..
theorem Vexit_arg0 (c : Dev nD) : Vexit m c (Proc.devRef .tc main_arg0) = V m c main_arg0 := Function.update_of_ne (by decide) ..

/-- The last host line re-lays the result slab as the result matrix and writes nothing else. -/
theorem Vend_v1 (c : Dev nD) : Vend m c (Proc.devRef .tc main_v1) = (dats m 0 c).arrAt 4 cfg0.N := by
  rw [← Vexit_v1]
  dsimp only [Vend, hostOps1]
  after_results

theorem Vend_arg0 (c : Dev nD) : Vend m c (Proc.devRef .tc main_arg0) = V m c main_arg0 := by
  rw [← Vexit_arg0]
  dsimp only [Vend, hostOps1]
  after_results

theorem Vend_v2 (c : Dev nD) : Vend m c (Proc.devRef .tc main_v2)
    = shapeCast S8192x2048 ((dats m 0 c).arrAt 4 cfg0.N) shapeCasts_S8x1024x2048_S8192x2048 := by
  rw [← Vexit_v1]
  dsimp only [Vend, hostOps1]
  after_results
  rfl

theorem tail_sub : ∀ ops ∈ ([hostOps1] : List (List (HloOp τ sig (Elt F)))), ∀ op ∈ ops, op.bufs ⊆ tailBufs := by
  intro ops hops op hop
  simp only [List.mem_singleton] at hops; subst hops
  simp only [hostOps1, List.mem_singleton] at hop; subst hop
  show ({Proc.devRef .tc main_v1, Proc.devRef .tc main_v2} : Finset (DevRef τ sig)) ⊆ tailBufs; decide

theorem tail_fresh : ∀ ops ∈ ([hostOps1] : List (List (HloOp τ sig (Elt F)))), ∀ op ∈ ops, op.fresh = ∅ := by
  intro ops hops op hop
  simp only [List.mem_singleton] at hops; subst hops
  simp only [hostOps1, List.mem_singleton] at hop; subst hop
  rfl

/-- The bypassing buffers — the token matrix and the result matrix — at contents `W`. -/
theorem rest_chain (c : Dev nD) (W : (b : Ref sig .tc) → Buf (Elt F) ((c.tc : Thread nD τ).loc b)) :
    (Pipeline.unscopedRestP (Ix := Unit) (Name := ℕ) (U := UR sig nD τ) (Lvl := ℕ) Pipeline.Prefetch.none spec0 c W : sProp 𝕄)
      = iprop((((c.tc : Thread nD τ).loc main_arg0) ↦{fullShare} W main_arg0) ∗ (((c.tc : Thread nD τ).loc main_v2) ↦{fullShare} W main_v2)) := by
  rw [Pipeline.unscopedRestP_none, unscopedRest0_eq]

set_option backward.isDefEq.respectTransparency.types false in
/-- THE LINE AFTER THE REGION: from the region's exit — the windows' holdings of their arrays, the bypassing buffers as
    entered — the re-laying of the result slab runs within the result slab and the result matrix, and hands back the
    holdings unchanged and the result matrix at the re-laid slab. -/
theorem tail_line (c : Dev nD) (Q' : PUnit → sProp 𝕄) :
    iprop((iprop((dats m 0 c).arrays ((dats m 0 c).arrAt · cfg0.N)
            ∗ Pipeline.unscopedRestP Pipeline.Prefetch.none spec0 c (fun b => Vend m c (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hW : (StableHlo.held (c.tc : Thread nD τ) tailBufs (Vexit m c) : sProp 𝕄)
      = iprop((((c.tc : Thread nD τ).loc main_v1) ↦{fullShare} (dats m 0 c).arrAt 4 cfg0.N)
          ∗ (((c.tc : Thread nD τ).loc main_v2) ↦{fullShare} V m c main_v2)) := by
    rw [tailBufs_held, Vexit_v1, Vexit_v2]
  have hW' : (StableHlo.held (c.tc : Thread nD τ) tailBufs (StableHlo.after ([hostOps1 (F := F)].flatten) (Vexit m c)) : sProp 𝕄)
      = iprop((((c.tc : Thread nD τ).loc main_v1) ↦{fullShare} (dats m 0 c).arrAt 4 cfg0.N)
          ∗ (((c.tc : Thread nD τ).loc main_v2) ↦{fullShare} Vend m c (Proc.devRef .tc main_v2))) := by
    rw [tailBufs_held, show ([hostOps1 (F := F)].flatten) = hostOps1 (F := F) from by simp only [List.flatten_cons, List.flatten_nil, List.append_nil]]
    rw [show StableHlo.after (hostOps1 (F := F)) (Vexit m c) (Proc.devRef .tc main_v1) = (dats m 0 c).arrAt 4 cfg0.N from Vend_v1 m c]
  rw [arrays_chain, rest_chain, rest_chain, Vend_arg0]
  rw [show Pipeline.chain [StableHlo.seq (hostOps1 (F := F))]
      = (Pipeline.chain (([hostOps1 (F := F)].map StableHlo.seq) ++ []) : Prog (TpuEff nD τ sig (Elt F) (Pipeline.Sig Λ₀ (Fin 1) fun p => ((cfgs p).toPCfg (Val := Elt F)).Adm) .tc) PUnit) from rfl]
  iintro ⟨Hk, Hb, ⟨A0, A1, A2, A3, A4⟩, ⟨R0, R2⟩⟩
  iapply (Pipeline.wp_seqs_then (fun q => (cfgs q).toPCfg (Val := Elt F)) defs₀ Variants.none c tailBufs [] [hostOps1] tail_sub tail_fresh (Vexit m c)) $$ [Hb A4 R2]
  · isplitl [Hb]; · iexact Hb
    rw [hW]
    isplitl [A4]; · iexact A4
    iexact R2
  iintro Hh
  rw [Pipeline.chain_nil, wp_pure, hW']
  imodintro
  iapply Hk
  icases Hh with ⟨-, ⟨A4, R2⟩⟩
  isplitl [A0 A1 A2 A3 A4]
  · isplitl [A0]; · iexact A0
    isplitl [A1]; · iexact A1
    isplitl [A2]; · iexact A2
    isplitl [A3]; · iexact A3
    iexact A4
  isplitl [R0]; · iexact R0
  iexact R2

/-! ## The run -/

/-- What the run ends with: every windowed array at what the library computes from the proof data (an input its entry
    contents, the result slab those overwritten by each expert's block at its write-back), and the two bypassing
    buffers at the contents after the last host line. -/
def EndPost (r : PUnit × MemSt nD τ sig (Elt F)) : Prop :=
  ∀ c : Dev nD, (∀ w, r.2.mem (((cfgs 0).spec w).arr.view.loc (c.tc : Thread nD τ)) = (dats m 0 c).arrAt w cfg0.N)
    ∧ ∀ b ∈ Pipeline.restRefsP sig Pipeline.Prefetch.none spec0, r.2.mem ((c.tc : Thread nD τ).loc b) = Vend m c (Proc.devRef .tc b)

set_option backward.isDefEq.respectTransparency.types false in
/-- At the compiled mesh, for any float values, from any memory with zero counters: every weakly fair execution of @main
    on the TensorCores terminates, nothing faulting, in a state satisfying `EndPost`. The one launch theorem that lets
    windows share an array is used with its fields: the arrays dealt by `arrays_deal`, the line after the region by
    `tail_line`. -/
theorem run_main : θ_run defs (onTc (τ := τ) (main (F := F))) ⟨m, fun _ => 0, ρ⟩ (EndPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj)
          (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := arrays_deal m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Vend m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_line m)
    (QY := fun c s => ∀ b ∈ Pipeline.restRefsP sig Pipeline.Prefetch.none spec0, s.mem ((c.tc : Thread nD τ).loc b) = Vend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Vend m c (Proc.devRef .tc b)) s')
      isplitl [HU] <;> iassumption)
    (hQ := fun s h c => ⟨(h c).1, (h c).2.2⟩)

/-! ## The frame -/

/-- THE FRAME, at any float instance: every weakly fair execution of @main terminates, nothing faulting, with the three
    argument arrays as launched — the token matrix bypasses the region (the region reads its re-laid copy) and the last
    host line does not write it; the two weight arrays are input windows' arrays, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_arg0 (by decide)).trans ((Vend_arg0 m c).trans (V_main_arg0 m c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩) (run_main m ρ)

end Cert.Kernel.Frame

end
-- ==== Proof.KI.Points.lean ====
/-
  The grid of the expert layer's kernel, point by point: what the region finds in the arrays it stages, which block of
  each array a point works on, and at which points the output block is reset.

  The grid is (expert e, inner tile s), 8 × 16 = 128 points in row-major order, so point t is expert t / 16 at tile
  t % 16. The token block of expert e (window 0) and its output block (window 4) do not move while s runs; the gate
  tile s and the up tile 16 + s of the joint gate/up matrix (windows 1 and 2, two windows on ONE array) and the down
  tile s (window 3) move at every point. The output block is zero-filled exactly at the points with t % 16 = 0.
-/
import proofs.«105637_j8332236554875_2_alg».proof.Proof.Gen.KernelIdeal.Launch
import proofs.«105637_j8332236554875_2_alg».proof.Proof.Gen.KernelIdeal.Skeleton
import proofs.«105637_j8332236554875_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host line before it (the token
    matrix re-laid as one slab per expert). -/
abbrev V0 (c : Dev nD) : Valuation τ sig (Elt F) := StableHlo.after ([hostOps0 (F := F)].flatten) (fun b => m (c, b))

abbrev V (c : Dev nD) (b : Ref sig .tc) : Buf (Elt F) ((c : Thread nD τ).loc b) := V0 m c (Proc.devRef .tc b)

/-- The host line before the region writes only the re-laid token slab: the two weight arrays are as launched. -/
theorem V_main_arg1 (c : Dev nD) : V m c main_arg1 = m ((c : Thread nD τ).loc main_arg1) := by
  dsimp only [V, V0]
  simp only [hostOps0, List.flatten_cons, List.flatten_nil, List.append_nil]
  after_results

theorem V_main_arg2 (c : Dev nD) : V m c main_arg2 = m ((c : Thread nD τ).loc main_arg2) := by
  dsimp only [V, V0]
  simp only [hostOps0, List.flatten_cons, List.flatten_nil, List.append_nil]
  after_results

theorem V_main_arg0 (c : Dev nD) : V m c main_arg0 = m ((c : Thread nD τ).loc main_arg0) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place: unfetched, the block index has not
    moved. The four input windows are uncut and never idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The reset condition -/

/-- The condition of the body's one branch, from the grid coordinates: the inner-tile coordinate is zero. -/
abbrev isFirst (i : grid0.Coords) : Prop := (Scalar.cmpi .ne (Scalar.extui (Scalar.cmpi .eq (BitVec.ofNat 32 (i 1).val) 0#32)) 0#32) = 1#1

/-- It holds exactly at the first tile of each expert — decided over the 128 points. -/
theorem isFirst_iff : ∀ t : Fin cfg0.N, isFirst (grid0.coords t) ↔ t.val % 16 = 0 :=
  (by decide +kernel : ∀ t : Fin grid0.N, isFirst (grid0.coords t) ↔ t.val % 16 = 0)

/-! ## The staging memrefs the body is called with -/

/-- One staging buffer of the output window, through which its contents are stated. -/
abbrev VO : View sig .tc .vmem S1x1024x2048 .f32 := (Memref.whole cc0_stg4_0 : Memref sig .tc .vmem S1x1024x2048 .f32).view

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x2048 .f32 := win0_4.stage (cfg0.slots t 4)
abbrev hs4 (t : Fin cfg0.N) : (ms4 t).IsWhole := hstage0_4 ((cfg0.slots t 4).cast nbuf0_4)

end Cert.KernelIdeal.Frame

end
-- ==== Proof.KI.RunFirst.lean ====
/-
  The kernel body run at a first tile of an expert.
-/
import proofs.«105637_j8332236554875_2_alg».proof.Proof.KI.Points

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a FIRST tile (the inner-tile coordinate is zero): the output block is zero-filled, then the step's
    product is added to it. The four input buffers are held at their contents and handed back unchanged; the output
    buffer is found holding anything and left with the pieces the two stores wrote (last first). -/
noncomputable def runFirst (c : Dev nD) (i : grid0.Coords)
    (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame

end
-- ==== Proof.KI.RunLater.lean ====
/-
  The kernel body run at a later tile of an expert.
-/
import proofs.«105637_j8332236554875_2_alg».proof.Proof.KI.RunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a LATER tile (the inner-tile coordinate is not zero): no reset; the step's product is added to what the
    output buffer holds (`xo`, what the tile before left). The four input buffers are held at their contents and
    handed back unchanged; the output buffer is left with the piece the one store wrote. -/
noncomputable def runLater (c : Dev nD) (i : grid0.Coords)
    (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame

end
-- ==== Proof.KI.Data.lean ====
/-
  What the output block holds after each grid point, the pipeline's proof data, and the body obligation.

  At a first tile the body zero-fills the output block and adds the tile's product; at a later tile it adds the tile's
  product to what the tile before left. The output block's staging buffer is written back only after an expert's last
  tile (t % 16 = 15), so between the tiles of one expert the buffer carries the running sum.
-/
import proofs.«105637_j8332236554875_2_alg».proof.Proof.KI.RunLater

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two stores of a first tile tile the output block, so they cover it. -/
theorem coverFirst (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) (y : S1x1024x2048.Idx) :
    ∃ pc ∈ (runFirst c i arg2 harg2 arg3 harg3 arg4 harg4 arg5 harg5 arg6 harg6 hc0 x0 x1 x2 x3).1, y ∈ pc.1.set :=
  View.cover_of_tiledL (runFirst c i arg2 harg2 arg3 harg3 arg4 harg4 arg5 harg5 arg6 harg6 hc0 x0 x1 x2 x3).1 S1x1024x2048.size (by sl_kernel_rfl) y

/-- What a first tile leaves in the output block's staging buffer: its pieces read back. -/
def outFirst (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) : Vec F S1x1024x2048 .f32 :=
  VO.read (Elt F) (VO.writes (Elt F) VO.junk (runFirst c i arg2 harg2 arg3 harg3 arg4 harg4 arg5 harg5 arg6 harg6 hc0 x0 x1 x2 x3).1)

/-- The one store of a later tile covers the output block. -/
theorem coverLater (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) (y : S1x1024x2048.Idx) :
    ∃ pc ∈ (runLater c i arg2 harg2 arg3 harg3 arg4 harg4 arg5 harg5 arg6 harg6 hc0 x0 x1 x2 x3 xo).1, y ∈ pc.1.set :=
  View.cover_of_tiledL (runLater c i arg2 harg2 arg3 harg3 arg4 harg4 arg5 harg5 arg6 harg6 hc0 x0 x1 x2 x3 xo).1 S1x1024x2048.size (by sl_kernel_rfl) y

/-- What a later tile leaves in the output block's staging buffer, over what the tile before left (`xo`). -/
def outLater (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) : Vec F S1x1024x2048 .f32 :=
  VO.read (Elt F) (VO.writes (Elt F) VO.junk (runLater c i arg2 harg2 arg3 harg3 arg4 harg4 arg5 harg5 arg6 harg6 hc0 x0 x1 x2 x3 xo).1)

/-! ## What the output block holds after each point -/

/-- THE ACCUMULATION. What the output block's staging buffer holds after the body at position `n`: at a first tile
    the reset-and-add of the point's input blocks, at a later tile the add over what position `n - 1` left. -/
def outsAt (c : Dev nD) : (n : ℕ) → n < cfg0.N → Vec F S1x1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at a first tile. -/
theorem outsAt_first (c : Dev nD) (t : Fin cfg0.N) (h0 : t.val % 16 = 0) :
    outsAt m c t.val t.isLt = outFirst c (grid0.coords t) (ms0 t) (hs0 t) (ms1 t) (hs1 t) (ms2 t) (hs2 t) (ms3 t) (hs3 t) (ms4 t) (hs4 t) ((isFirst_iff t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later tile: over what the point before left. -/
theorem outsAt_later (c : Dev nD) (t : Fin cfg0.N) (h0 : ¬t.val % 16 = 0) :
    outsAt m c t.val t.isLt = outLater c (grid0.coords t) (ms0 t) (hs0 t) (ms1 t) (hs1 t) (ms2 t) (hs2 t) (ms3 t) (hs3 t) (ms4 t) (hs4 t) (fun h => h0 ((isFirst_iff t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt`; the invariant the scoped rest and the random-number
    register; nothing owed. The joint gate/up matrix is read through two windows: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-- At a later tile the output block's staging buffer holds what the body left at the point before: the buffer was not
    written back between (write-backs follow an expert's last tile only), the window is live and uncut. -/
theorem before_4_later (c : Dev nD) (t : Fin cfg0.N) (h0 : ¬t.val % 16 = 0) (d) :
    (dats m 0 c).before 4 t d = (outsAt m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the closed form of the reset condition says which
    case the point is in; at a later tile the output's buffer holds what the point before left; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 128 := lt_of_lt_of_eq t.isLt (show cfg0.N = 128 from N_0)
  by_cases h0 : t.val % 16 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KI.Launch.lean ====
/-
  The run of the expert layer's program around its one kernel region. The kernel reads the joint gate/up matrix through
  TWO windows (the gate tile and the up tile of one array), so the array's ownership is dealt between them at the
  region's entry — each window holds half of it for the whole region, which is enough because input windows are only
  read. Around the region @main re-lays the token matrix as one slab per expert (before) and the result slab as the
  result matrix (after).
-/
import proofs.«105637_j8332236554875_2_alg».proof.Proof.KI.Data

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline
open Idealize.SL.BI (bigSepL bigSep_univ_eq_bigSepL bigSep_eq_bigSepL_of_eq)

/-! ## The windows' arrays, dealt -/

/-- The windows' holdings of their arrays, one by one: the token slab, the two halves of the joint gate/up matrix, the
    down matrix, the result slab. -/
theorem arrays_chain (c : Dev nD) (Fa : (w : Fin cfg0.W) → Buf (Elt F) ((cfg0.win w).arr.view.loc (c.tc : Thread nD τ))) :
    ((dats m 0 c).arrays Fa : sProp 𝕄) = iprop(
      (((c.tc : Thread nD τ).loc main_v0) ↦{fullShare} Fa 0) ∗ (((c.tc : Thread nD τ).loc main_arg1) ↦{fullShare.left} Fa 1)
      ∗ (((c.tc : Thread nD τ).loc main_arg1) ↦{fullShare.right} Fa 2)
      ∗ (((c.tc : Thread nD τ).loc main_arg2) ↦{fullShare} Fa 3) ∗ (((c.tc : Thread nD τ).loc main_v1) ↦{fullShare} Fa 4)) := by
  unfold Dat.arrays
  rw [show (bigSep Finset.univ fun w : Fin cfg0.W => ((cfg0.win w).arr.view.loc (c.tc : Thread nD τ) ↦[(cfg0.win w).arr.view.set]{(dats m 0 c).share w} Fa w : sProp 𝕄))
      = bigSep Finset.univ fun w : Fin cfg0.W => ((cfg0.win w).arr.view.loc (c.tc : Thread nD τ) ↦{(dats m 0 c).share w} Fa w : sProp 𝕄)
      from bigSep_congr fun w _ => by rw [(arr_whole0 w).set_eq_univ], bigSep_W0]
  rfl

/-- The four distinct buffers behind the five windows, each whole. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄) = iprop(
      (((c.tc : Thread nD τ).loc main_v0) ↦{fullShare} W main_v0) ∗ (((c.tc : Thread nD τ).loc main_arg1) ↦{fullShare} W main_arg1)
      ∗ (((c.tc : Thread nD τ).loc main_arg2) ↦{fullShare} W main_arg2) ∗ (((c.tc : Thread nD τ).loc main_v1) ↦{fullShare} W main_v1)) := by
  unfold Pipeline.arrBufs
  rw [bigSep_eq_bigSepL_of_eq [main_v0, main_arg1, main_arg2, main_v1] (by decide) (by decide)]
  rfl

/-- At entry the joint gate/up matrix, held whole, is split between the two windows that read it; every other array
    goes whole to its one window. -/
theorem arrays_deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_chain, arrBufs_chain]
  iintro ⟨H0, H1, H2, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  isplitl [H2]; · iexact H2
  iexact H3

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host line before the region, the region, the host line after it: it reduces to the region continued
    by the later line, at the contents after the earlier one. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The host line after the region -/

/-- The two buffers the last host line touches: the result slab it reads and the result matrix it writes. -/
def tailBufs : Finset (DevRef τ sig) := {Proc.devRef .tc main_v1, Proc.devRef .tc main_v2}

theorem tailBufs_held (c : Dev nD) (W : Valuation τ sig (Elt F)) : (StableHlo.held (c.tc : Thread nD τ) tailBufs W : sProp 𝕄)
    = iprop((((c.tc : Thread nD τ).loc main_v1) ↦{fullShare} W (Proc.devRef .tc main_v1))
        ∗ (((c.tc : Thread nD τ).loc main_v2) ↦{fullShare} W (Proc.devRef .tc main_v2))) := by
  unfold StableHlo.held
  rw [bigSep_eq_bigSepL_of_eq [Proc.devRef .tc main_v1, Proc.devRef .tc main_v2] (by decide) (by decide)]
  rfl

/-- The buffers as the region leaves them: the result slab at what the write-backs made of it, the rest as entered. -/
abbrev Vexit (c : Dev nD) : Valuation τ sig (Elt F) :=
  Function.update (V0 m c) (Proc.devRef .tc main_v1) ((dats m 0 c).arrAt 4 cfg0.N)

/-- And after the last host line. -/
abbrev Vend (c : Dev nD) : Valuation τ sig (Elt F) := StableHlo.after (hostOps1 (F := F)) (Vexit m c)

theorem Vexit_v1 (c : Dev nD) : Vexit m c (Proc.devRef .tc main_v1) = (dats m 0 c).arrAt 4 cfg0.N := Function.update_self ..
theorem Vexit_v2 (c : Dev nD) : Vexit m c (Proc.devRef .tc main_v2) = V m c main_v2 := Function.update_of_ne (by decide) ..
theorem Vexit_arg0 (c : Dev nD) : Vexit m c (Proc.devRef .tc main_arg0) = V m c main_arg0 := Function.update_of_ne (by decide) ..

/-- The last host line re-lays the result slab as the result matrix and writes nothing else. -/
theorem Vend_v1 (c : Dev nD) : Vend m c (Proc.devRef .tc main_v1) = (dats m 0 c).arrAt 4 cfg0.N := by
  rw [← Vexit_v1]
  dsimp only [Vend, hostOps1]
  after_results

theorem Vend_arg0 (c : Dev nD) : Vend m c (Proc.devRef .tc main_arg0) = V m c main_arg0 := by
  rw [← Vexit_arg0]
  dsimp only [Vend, hostOps1]
  after_results

theorem Vend_v2 (c : Dev nD) : Vend m c (Proc.devRef .tc main_v2)
    = shapeCast S8192x2048 ((dats m 0 c).arrAt 4 cfg0.N) shapeCasts_S8x1024x2048_S8192x2048 := by
  rw [← Vexit_v1]
  dsimp only [Vend, hostOps1]
  after_results
  rfl

theorem tail_sub : ∀ ops ∈ ([hostOps1] : List (List (HloOp τ sig (Elt F)))), ∀ op ∈ ops, op.bufs ⊆ tailBufs := by
  intro ops hops op hop
  simp only [List.mem_singleton] at hops; subst hops
  simp only [hostOps1, List.mem_singleton] at hop; subst hop
  show ({Proc.devRef .tc main_v1, Proc.devRef .tc main_v2} : Finset (DevRef τ sig)) ⊆ tailBufs; decide

theorem tail_fresh : ∀ ops ∈ ([hostOps1] : List (List (HloOp τ sig (Elt F)))), ∀ op ∈ ops, op.fresh = ∅ := by
  intro ops hops op hop
  simp only [List.mem_singleton] at hops; subst hops
  simp only [hostOps1, List.mem_singleton] at hop; subst hop
  rfl

/-- The bypassing buffers — the token matrix and the result matrix — at contents `W`. -/
theorem rest_chain (c : Dev nD) (W : (b : Ref sig .tc) → Buf (Elt F) ((c.tc : Thread nD τ).loc b)) :
    (Pipeline.unscopedRestP (Ix := Unit) (Name := ℕ) (U := UR sig nD τ) (Lvl := ℕ) Pipeline.Prefetch.none spec0 c W : sProp 𝕄)
      = iprop((((c.tc : Thread nD τ).loc main_arg0) ↦{fullShare} W main_arg0) ∗ (((c.tc : Thread nD τ).loc main_v2) ↦{fullShare} W main_v2)) := by
  rw [Pipeline.unscopedRestP_none, unscopedRest0_eq]

set_option backward.isDefEq.respectTransparency.types false in
/-- THE LINE AFTER THE REGION: from the region's exit — the windows' holdings of their arrays, the bypassing buffers as
    entered — the re-laying of the result slab runs within the result slab and the result matrix, and hands back the
    holdings unchanged and the result matrix at the re-laid slab. -/
theorem tail_line (c : Dev nD) (Q' : PUnit → sProp 𝕄) :
    iprop((iprop((dats m 0 c).arrays ((dats m 0 c).arrAt · cfg0.N)
            ∗ Pipeline.unscopedRestP Pipeline.Prefetch.none spec0 c (fun b => Vend m c (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hW : (StableHlo.held (c.tc : Thread nD τ) tailBufs (Vexit m c) : sProp 𝕄)
      = iprop((((c.tc : Thread nD τ).loc main_v1) ↦{fullShare} (dats m 0 c).arrAt 4 cfg0.N)
          ∗ (((c.tc : Thread nD τ).loc main_v2) ↦{fullShare} V m c main_v2)) := by
    rw [tailBufs_held, Vexit_v1, Vexit_v2]
  have hW' : (StableHlo.held (c.tc : Thread nD τ) tailBufs (StableHlo.after ([hostOps1 (F := F)].flatten) (Vexit m c)) : sProp 𝕄)
      = iprop((((c.tc : Thread nD τ).loc main_v1) ↦{fullShare} (dats m 0 c).arrAt 4 cfg0.N)
          ∗ (((c.tc : Thread nD τ).loc main_v2) ↦{fullShare} Vend m c (Proc.devRef .tc main_v2))) := by
    rw [tailBufs_held, show ([hostOps1 (F := F)].flatten) = hostOps1 (F := F) from by simp only [List.flatten_cons, List.flatten_nil, List.append_nil]]
    rw [show StableHlo.after (hostOps1 (F := F)) (Vexit m c) (Proc.devRef .tc main_v1) = (dats m 0 c).arrAt 4 cfg0.N from Vend_v1 m c]
  rw [arrays_chain, rest_chain, rest_chain, Vend_arg0]
  rw [show Pipeline.chain [StableHlo.seq (hostOps1 (F := F))]
      = (Pipeline.chain (([hostOps1 (F := F)].map StableHlo.seq) ++ []) : Prog (TpuEff nD τ sig (Elt F) (Pipeline.Sig Λ₀ (Fin 1) fun p => ((cfgs p).toPCfg (Val := Elt F)).Adm) .tc) PUnit) from rfl]
  iintro ⟨Hk, Hb, ⟨A0, A1, A2, A3, A4⟩, ⟨R0, R2⟩⟩
  iapply (Pipeline.wp_seqs_then (fun q => (cfgs q).toPCfg (Val := Elt F)) defs₀ Variants.none c tailBufs [] [hostOps1] tail_sub tail_fresh (Vexit m c)) $$ [Hb A4 R2]
  · isplitl [Hb]; · iexact Hb
    rw [hW]
    isplitl [A4]; · iexact A4
    iexact R2
  iintro Hh
  rw [Pipeline.chain_nil, wp_pure, hW']
  imodintro
  iapply Hk
  icases Hh with ⟨-, ⟨A4, R2⟩⟩
  isplitl [A0 A1 A2 A3 A4]
  · isplitl [A0]; · iexact A0
    isplitl [A1]; · iexact A1
    isplitl [A2]; · iexact A2
    isplitl [A3]; · iexact A3
    iexact A4
  isplitl [R0]; · iexact R0
  iexact R2

/-! ## The run -/

/-- What the run ends with: every windowed array at what the library computes from the proof data (an input its entry
    contents, the result slab those overwritten by each expert's block at its write-back), and the two bypassing
    buffers at the contents after the last host line. -/
def EndPost (r : PUnit × MemSt nD τ sig (Elt F)) : Prop :=
  ∀ c : Dev nD, (∀ w, r.2.mem (((cfgs 0).spec w).arr.view.loc (c.tc : Thread nD τ)) = (dats m 0 c).arrAt w cfg0.N)
    ∧ ∀ b ∈ Pipeline.restRefsP sig Pipeline.Prefetch.none spec0, r.2.mem ((c.tc : Thread nD τ).loc b) = Vend m c (Proc.devRef .tc b)

set_option backward.isDefEq.respectTransparency.types false in
/-- At the compiled mesh, for any float values, from any memory with zero counters: every weakly fair execution of @main
    on the TensorCores terminates, nothing faulting, in a state satisfying `EndPost`. The one launch theorem that lets
    windows share an array is used with its fields: the arrays dealt by `arrays_deal`, the line after the region by
    `tail_line`. -/
theorem run_main : θ_run defs (onTc (τ := τ) (main (F := F))) ⟨m, fun _ => 0, ρ⟩ (EndPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj)
          (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := arrays_deal m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Vend m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_line m)
    (QY := fun c s => ∀ b ∈ Pipeline.restRefsP sig Pipeline.Prefetch.none spec0, s.mem ((c.tc : Thread nD τ).loc b) = Vend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Vend m c (Proc.devRef .tc b)) s')
      isplitl [HU] <;> iassumption)
    (hQ := fun s h c => ⟨(h c).1, (h c).2.2⟩)

/-! ## The frame -/

/-- THE FRAME, at any float instance: every weakly fair execution of @main terminates, nothing faulting, with the three
    argument arrays as launched — the token matrix bypasses the region (the region reads its re-laid copy) and the last
    host line does not write it; the two weight arrays are input windows' arrays, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_arg0 (by decide)).trans ((Vend_arg0 m c).trans (V_main_arg0 m c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩) (run_main m ρ)

end Cert.KernelIdeal.Frame

end
-- ==== Proof.KI.Pieces.lean ====
/-
  What the stores of one grid point leave in the output block, as a function of the blocks the body loaded.
-/
import proofs.«105637_j8332236554875_2_alg».proof.Proof.KI.Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- At a later tile the output block is left at the step's payload of the four input blocks and of what the block held:
    the one covering store's value, its loads reading the whole buffers. -/
theorem outLater_eq (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : ¬isFirst i)
    (x0 : Vec F S1x1024x2048 .f32) (x1 : Vec F S1x2048x256 .f32) (x2 : Vec F S1x2048x256 .f32) (x3 : Vec F S1x256x2048 .f32) (xo : Vec F S1x1024x2048 .f32) :
    outLater c i arg2 harg2 arg3 harg3 arg4 harg4 arg5 harg5 arg6 harg6 hc0 x0 x1 x2 x3 xo = k0_pay2 x0 x1 x2 x3 xo := by
  unfold outLater
  rw [View.read_writes_eq_canon _ _ _ (coverLater c i arg2 harg2 arg3 harg3 arg4 harg4 arg5 harg5 arg6 harg6 hc0 x0 x1 x2 x3 xo)]
  unfold runLater
  dsimp only
  rw [View.canon_unit_zero hz3]
  simp only [View.readAt_eq_ld, harg2.read_unread, harg3.read_unread, harg4.read_unread, harg5.read_unread, harg6.read_unread,
    View.ld_unit_zero (S := S1x1024x2048) hz3, View.ld_unit_zero (S := S1x2048x256) hz3, View.ld_unit_zero (S := S1x256x2048) hz3]

/-- At a first tile the block is zero-filled first: the step's payload is taken over the zero block, read back from the
    store that wrote it. -/
theorem outFirst_eq (c : Dev nD) (i : grid0.Coords) (arg2 : Memref sig .tc .vmem S1x1024x2048 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x256x2048 .f32) (harg5 : arg5.IsWhole)
    (arg6 : Memref sig .tc .vmem S1x1024x2048 .f32) (harg6 : arg6.IsWhole) (hc0 : isFirst i)
    (x0 : Vec F S1x1024x2048 .f32) (x1 : Vec F S1x2048x256 .f32) (x2 : Vec F S1x2048x256 .f32) (x3 : Vec F S1x256x2048 .f32) :
    outFirst c i arg2 harg2 arg3 harg3 arg4 harg4 arg5 harg5 arg6 harg6 hc0 x0 x1 x2 x3 = k0_pay2 x0 x1 x2 x3 (k0_pay1 (F := F)) := by
  unfold outFirst
  rw [View.read_writes_eq_canon _ _ _ (coverFirst c i arg2 harg2 arg3 harg3 arg4 harg4 arg5 harg5 arg6 harg6 hc0 x0 x1 x2 x3)]
  unfold runFirst
  dsimp only
  sl_unfold_words
  rw [View.canon_cons_unit_zero (S := S1x1024x2048) hz3, View.readCov_unit_zero (S := S1x1024x2048) _ hz3]
  simp only [View.readAt_eq_ld, harg2.read_unread, harg3.read_unread, harg4.read_unread, harg5.read_unread,
    View.ld_unit_zero (S := S1x1024x2048) hz3, View.ld_unit_zero (S := S1x2048x256) hz3, View.ld_unit_zero (S := S1x256x2048) hz3]

end Cert.KernelIdeal.Frame

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.Spec.lean ====
/-
  The expert layer as one function of its three argument arrays, on the extended reals.

  There are 8 experts; expert e sees 1024 tokens of width 2048. Its first weight matrix has 8192 columns: columns
  0..4095 give the gate projection and columns 4096..8191 the up projection of a token. The intermediate entry i of a
  token is  up_i * (gate_i * logistic gate_i)  (the gated unit), and the output entry h of the token is the sum over
  the 4096 intermediate entries of that value times the second weight matrix at (i, h).

  The sum over the 4096 intermediate entries can be taken in 16 consecutive tiles of 256: the running sum after tile s
  is the running sum after tile s - 1 plus the 256 terms of tile s, starting from zero. After the last tile it is the
  whole sum. Only commutativity and associativity of the addition are used, so nothing has to be finite.
-/
import Idealize.ShloMosaic.PureOps.Ideal.Laws
import Idealize.ShloMosaic.Lib.ValueIdx
import proofs.«105637_j8332236554875_2_alg».proof.Proof.LibBlockedSum

noncomputable section

namespace Cert.Experts

open Idealize.ShloMosaic Idealize.ShloMosaic.ValueIdx
open scoped BigOperators

/-- Entry j of the first projection of token t of expert e: the inner product of the token with column j of the
    expert's first weight matrix. -/
def proj (x : (⟨3, ![8, 1024, 2048]⟩ : Shape).Idx → EReal) (gu : (⟨3, ![8, 2048, 8192]⟩ : Shape).Idx → EReal)
    (e : Fin 8) (t : Fin 1024) (j : Fin 8192) : EReal :=
  ∑ k : Fin 2048, x (ix3 e t k) * gu (ix3 e k j)

/-- The gated unit: the up value times the gate value passed through x ↦ x * logistic x. -/
def swiglu (g u : EReal) : EReal := u * (g * Ideal.logistic g)

/-- Intermediate entry i of a token: the gated unit of gate column i and up column 4096 + i (zero past the axis). -/
def inter (x : (⟨3, ![8, 1024, 2048]⟩ : Shape).Idx → EReal) (gu : (⟨3, ![8, 2048, 8192]⟩ : Shape).Idx → EReal)
    (e : Fin 8) (t : Fin 1024) (i : ℕ) : EReal :=
  if h : i < 4096 then swiglu (proj x gu e t ⟨i, by omega⟩) (proj x gu e t ⟨4096 + i, by omega⟩) else 0

/-- The term intermediate entry i contributes to output entry h of a token (zero past the axis). -/
def term (x : (⟨3, ![8, 1024, 2048]⟩ : Shape).Idx → EReal) (gu : (⟨3, ![8, 2048, 8192]⟩ : Shape).Idx → EReal)
    (dn : (⟨3, ![8, 4096, 2048]⟩ : Shape).Idx → EReal) (e : Fin 8) (t : Fin 1024) (h : Fin 2048) (i : ℕ) : EReal :=
  if hi : i < 4096 then inter x gu e t i * dn (ix3 e ⟨i, hi⟩ h) else 0

/-- The layer: output entry (e, t, h) is the sum of the 4096 terms. -/
def experts (x : (⟨3, ![8, 1024, 2048]⟩ : Shape).Idx → EReal) (gu : (⟨3, ![8, 2048, 8192]⟩ : Shape).Idx → EReal)
    (dn : (⟨3, ![8, 4096, 2048]⟩ : Shape).Idx → EReal) : (⟨3, ![8, 1024, 2048]⟩ : Shape).Idx → EReal :=
  fun j => ∑ i : Fin 4096, term x gu dn (j 0) (j 1) (j 2) i.val

/-- The running sum after inner tile s (s = 0..15): the tile's 256 terms added to what the tiles before left, from
    zero. -/
def partialSum (x : (⟨3, ![8, 1024, 2048]⟩ : Shape).Idx → EReal) (gu : (⟨3, ![8, 2048, 8192]⟩ : Shape).Idx → EReal)
    (dn : (⟨3, ![8, 4096, 2048]⟩ : Shape).Idx → EReal) (e : Fin 8) (t : Fin 1024) (h : Fin 2048) : ℕ → EReal
  | 0 => 0 + ∑ d : Fin 256, term x gu dn e t h d.val
  | s + 1 => partialSum x gu dn e t h s + ∑ d : Fin 256, term x gu dn e t h (256 * (s + 1) + d.val)

variable (x : (⟨3, ![8, 1024, 2048]⟩ : Shape).Idx → EReal) (gu : (⟨3, ![8, 2048, 8192]⟩ : Shape).Idx → EReal)
  (dn : (⟨3, ![8, 4096, 2048]⟩ : Shape).Idx → EReal) (e : Fin 8) (t : Fin 1024) (h : Fin 2048)

/-- The running sum after tile s is the sum of the tiles 0..s. -/
theorem partialSum_eq_sum (s : ℕ) :
    partialSum x gu dn e t h s
      = ∑ s' ∈ Finset.range (s + 1), ∑ d : Fin 256, term x gu dn e t h (256 * s' + d.val) := by
  induction s with
  | zero =>
    rw [partialSum, zero_add, Finset.sum_range_one]
    exact Finset.sum_congr rfl fun d _ => congrArg (term x gu dn e t h) (by omega)
  | succ s ih => rw [partialSum, ih, Finset.sum_range_succ _ (s + 1)]

/-- After the last of the 16 tiles the running sum is the layer's output entry. -/
theorem partialSum_last : partialSum x gu dn e t h 15 = experts x gu dn (ix3 e t h) := by
  rw [partialSum_eq_sum]
  exact Cert.LibBlockedSum.sum_range_blocks 16 256 (term x gu dn e t h)

end Cert.Experts

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.StepValue.lean ====
/-
  What one grid step stores, read entry by entry on the extended reals.

  At the first inner tile the output block is filled with zeros. At every inner tile the step stores, at token t and
  output column h, what the block held there plus the sum over the tile's 256 intermediate columns d of

      up(t, d) * (gate(t, d) * logistic (gate(t, d))) * down(d, h),

  where gate(t, d) and up(t, d) are the inner products of token t with column d of the gate tile and of the up tile.
  The changes of float format are the identity on the extended reals, a matrix product into the zero accumulator is
  the plain inner product, and the leading unit axis of every block only renames indices.
-/
import proofs.«105637_j8332236554875_2_alg».proof.Proof.Spec
import proofs.«105637_j8332236554875_2_alg».proof.Proof.Gen.KernelIdeal.Skeleton
import proofs.«105637_j8332236554875_2_alg».proof.Proof.LibInnerProducts
import Idealize.ShloMosaic.Lib.ValueLayout

noncomputable section

namespace Cert.Experts

open Idealize.ShloMosaic Idealize.ShloMosaic.ValueIdx
open Cert.KernelIdeal Cert.KernelIdeal.Gen
open scoped BigOperators

/-- The value stored at the first inner tile is zero everywhere. -/
theorem zero_fill (j : S1x1024x2048.Idx) : k0_pay1 (F := Ideal) j = 0 := by
  obtain ⟨u, t, h, rfl⟩ : ∃ (u : Fin 1) (t : Fin 1024) (h : Fin 2048), j = ix3 u t h := ⟨j 0, j 1, j 2, eq_ix3 j⟩
  unfold k0_pay1
  refine (shapeCast_ab_1ab_apply _ _ u t h).trans ?_
  exact Ideal.ofBits_zero_f32

/-- The value a step stores at (t, h): the block's entry plus the tile's 256 terms. -/
theorem step_apply (v3 v21 : Vec Ideal S1x1024x2048 .f32) (v6 v9 : Vec Ideal S1x2048x256 .f32)
    (v12 : Vec Ideal S1x256x2048 .f32) (t : Fin 1024) (h : Fin 2048) :
    k0_pay2 (F := Ideal) v3 v6 v9 v12 v21 (ix3 0 t h)
      = v21 (ix3 0 t h) + ∑ d : Fin 256,
          swiglu (∑ k : Fin 2048, v3 (ix3 0 t k) * v6 (ix3 0 k d)) (∑ k : Fin 2048, v3 (ix3 0 t k) * v9 (ix3 0 k d))
            * v12 (ix3 0 d h) := by
  unfold k0_pay2
  refine (shapeCast_ab_1ab_apply _ _ (0 : Fin 1) t h).trans ?_
  refine congrArg₂ (· + ·) (shapeCast_1ab_ab_apply v21 _ t h) ?_
  refine (InnerProducts.matmul_zero_apply _ rfl none _ _ t h).trans ?_
  refine Finset.sum_congr rfl fun d _ => ?_
  refine congrArg₂ (· * ·) ?_ (shapeCast_1ab_ab_apply v12 _ d h)
  have hg : ∀ (w : Vec Ideal S1x2048x256 .f32),
      matmul dot_S1024x2048_S2048x256_S1024x256_1_0_0_1_n_n none
          (truncf .bf16 (shapeCast S1024x2048 v3 shapeCasts_S1x1024x2048_S1024x2048) bitsLt_bf16_f32)
          (truncf .bf16 (shapeCast S2048x256 w shapeCasts_S1x2048x256_S2048x256) bitsLt_bf16_f32)
          (constant (F := Ideal) S1024x256 .f32 0x00000000#32) (ix2 t d)
        = ∑ k : Fin 2048, v3 (ix3 0 t k) * w (ix3 0 k d) := fun w => by
    refine (InnerProducts.matmul_zero_apply _ rfl none _ _ t d).trans ?_
    refine Finset.sum_congr rfl fun k _ => ?_
    exact congrArg₂ (· * ·) (shapeCast_1ab_ab_apply v3 _ t k) (shapeCast_1ab_ab_apply w _ k d)
  show (matmul (F := Ideal) dot_S1024x2048_S2048x256_S1024x256_1_0_0_1_n_n none _ _ _ (ix2 t d))
      * ((matmul (F := Ideal) dot_S1024x2048_S2048x256_S1024x256_1_0_0_1_n_n none _ _ _ (ix2 t d))
        * Ideal.logistic (matmul (F := Ideal) dot_S1024x2048_S2048x256_S1024x256_1_0_0_1_n_n none _ _ _ (ix2 t d))) = _
  rw [hg v6, hg v9]
  rfl

end Cert.Experts

end
-- ==== Proof.KI.Value.lean ====
/-
  The result slab of the expert layer's kernel, in closed form on the extended reals.

  Point t of the grid is expert e = t / 16 at inner tile s = t % 16. The token block of the point is expert e's 1024
  tokens; its gate block is columns 256 s .. 256 s + 255 of expert e's joint matrix, its up block columns
  4096 + 256 s .. 4096 + 256 s + 255 of the same matrix, its down block rows 256 s .. 256 s + 255 of expert e's down
  matrix. So the step's product at (token p, output h) is the sum of the 256 terms of tile s, and after tile s the output
  block holds the running sum of the tiles 0..s; the block is written back after tile 15, when it holds the whole sum:
  the layer's output.
-/
import proofs.«105637_j8332236554875_2_alg».proof.Proof.KI.Launch
import proofs.«105637_j8332236554875_2_alg».proof.Proof.KI.Pieces
import proofs.«105637_j8332236554875_2_alg».proof.Proof.Spec
import proofs.«105637_j8332236554875_2_alg».proof.Proof.StepValue
import Idealize.ShloMosaic.Lib.Pipeline.Value
import Idealize.ShloMosaic.Lib.ValueIdx

set_option maxRecDepth 16384

noncomputable section

namespace Cert.KernelIdeal.Frame

open Cert.KernelIdeal Cert.KernelIdeal.Gen Cert.Experts
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The three arrays the layer is a function of, as the region finds them: the token slab, the joint gate/up matrix, the
    down matrix. -/
abbrev X (c : Dev nD) : (⟨3, ![8, 1024, 2048]⟩ : Shape).Idx → EReal := V m c main_v0
abbrev GU (c : Dev nD) : (⟨3, ![8, 2048, 8192]⟩ : Shape).Idx → EReal := V m c main_arg1
abbrev DN (c : Dev nD) : (⟨3, ![8, 4096, 2048]⟩ : Shape).Idx → EReal := V m c main_arg2

/-- The printed index maps in closed form, decided over the 128 points. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 16 + t.val % 16
    ∧ win0_3.index t (0 : Fin 3) = t.val / 16 ∧ win0_3.index t (1 : Fin 3) = t.val % 16 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-! ## The input blocks of a point, read off the arrays -/

theorem blk0_apply (c : Dev nD) (t : Fin cfg0.N) (e : Fin 8) (he : t.val / 16 = e.val) (p : Fin 1024) (k : Fin 2048) :
    iblk m c 0 t (ix3 0 p k) = X m c (ix3 e p k) := by
  obtain ⟨e0, e1, e2, -⟩ := idx_facts t
  show V m c main_v0 (((cfg0.win 0).blk t).view.emb (ix3 0 p k)) = V m c main_v0 (ix3 e p k)
  refine congrArg _ (funext fun a => Fin.ext ?_)
  match a with
  | ⟨0, _⟩ => show win0_0.index t (0 : Fin 3) * 1 + 1 * 0 = e.val; omega
  | ⟨1, _⟩ => show win0_0.index t (1 : Fin 3) * 1024 + 1 * p.val = p.val; omega
  | ⟨2, _⟩ => show win0_0.index t (2 : Fin 3) * 2048 + 1 * k.val = k.val; omega

theorem blk1_apply (c : Dev nD) (t : Fin cfg0.N) (e : Fin 8) (he : t.val / 16 = e.val) (k : Fin 2048) (d : Fin 256)
    (hj : 256 * (t.val % 16) + d.val < 8192) :
    iblk m c 1 t (ix3 0 k d) = GU m c (ix3 e k ⟨256 * (t.val % 16) + d.val, hj⟩) := by
  obtain ⟨-, -, -, e0, e1, e2, -⟩ := idx_facts t
  show V m c main_arg1 (((cfg0.win 1).blk t).view.emb (ix3 0 k d)) = V m c main_arg1 (ix3 e k ⟨256 * (t.val % 16) + d.val, hj⟩)
  refine congrArg _ (funext fun a => Fin.ext ?_)
  match a with
  | ⟨0, _⟩ => show win0_1.index t (0 : Fin 3) * 1 + 1 * 0 = e.val; omega
  | ⟨1, _⟩ => show win0_1.index t (1 : Fin 3) * 2048 + 1 * k.val = k.val; omega
  | ⟨2, _⟩ => show win0_1.index t (2 : Fin 3) * 256 + 1 * d.val = 256 * (t.val % 16) + d.val; omega

theorem blk2_apply (c : Dev nD) (t : Fin cfg0.N) (e : Fin 8) (he : t.val / 16 = e.val) (k : Fin 2048) (d : Fin 256)
    (hj : 4096 + (256 * (t.val % 16) + d.val) < 8192) :
    iblk m c 2 t (ix3 0 k d) = GU m c (ix3 e k ⟨4096 + (256 * (t.val % 16) + d.val), hj⟩) := by
  obtain ⟨-, -, -, -, -, -, e0, e1, e2, -⟩ := idx_facts t
  show V m c main_arg1 (((cfg0.win 2).blk t).view.emb (ix3 0 k d)) = V m c main_arg1 (ix3 e k ⟨4096 + (256 * (t.val % 16) + d.val), hj⟩)
  refine congrArg _ (funext fun a => Fin.ext ?_)
  match a with
  | ⟨0, _⟩ => show win0_2.index t (0 : Fin 3) * 1 + 1 * 0 = e.val; omega
  | ⟨1, _⟩ => show win0_2.index t (1 : Fin 3) * 2048 + 1 * k.val = k.val; omega
  | ⟨2, _⟩ => show win0_2.index t (2 : Fin 3) * 256 + 1 * d.val = 4096 + (256 * (t.val % 16) + d.val); omega

theorem blk3_apply (c : Dev nD) (t : Fin cfg0.N) (e : Fin 8) (he : t.val / 16 = e.val) (d : Fin 256) (h : Fin 2048)
    (hj : 256 * (t.val % 16) + d.val < 4096) :
    iblk m c 3 t (ix3 0 d h) = DN m c (ix3 e ⟨256 * (t.val % 16) + d.val, hj⟩ h) := by
  obtain ⟨-, -, -, -, -, -, -, -, -, e0, e1, e2, -⟩ := idx_facts t
  show V m c main_arg2 (((cfg0.win 3).blk t).view.emb (ix3 0 d h)) = V m c main_arg2 (ix3 e ⟨256 * (t.val % 16) + d.val, hj⟩ h)
  refine congrArg _ (funext fun a => Fin.ext ?_)
  match a with
  | ⟨0, _⟩ => show win0_3.index t (0 : Fin 3) * 1 + 1 * 0 = e.val; omega
  | ⟨1, _⟩ => show win0_3.index t (1 : Fin 3) * 256 + 1 * d.val = 256 * (t.val % 16) + d.val; omega
  | ⟨2, _⟩ => show win0_3.index t (2 : Fin 3) * 2048 + 1 * h.val = h.val; omega

/-- One term of a point's product is the layer's term at the tile's position: at point (e, s), place d of the tile is
    intermediate entry 256 s + d. Stated over the four loaded blocks as vectors. -/
theorem tile_term (c : Dev nD) (t : Fin cfg0.N) (e : Fin 8) (he : t.val / 16 = e.val) (p : Fin 1024) (h : Fin 2048) (d : Fin 256)
    (b0 : Vec Ideal S1x1024x2048 .f32) (b1 b2 : Vec Ideal S1x2048x256 .f32) (b3 : Vec Ideal S1x256x2048 .f32)
    (h0 : b0 = iblk m c 0 t) (h1 : b1 = iblk m c 1 t) (h2 : b2 = iblk m c 2 t) (h3 : b3 = iblk m c 3 t) :
    swiglu (∑ k : Fin 2048, b0 (ix3 0 p k) * b1 (ix3 0 k d))
        (∑ k : Fin 2048, b0 (ix3 0 p k) * b2 (ix3 0 k d)) * b3 (ix3 0 d h)
      = term (X m c) (GU m c) (DN m c) e p h (256 * (t.val % 16) + d.val) := by
  subst h0 h1 h2 h3
  have hs : t.val % 16 < 16 := Nat.mod_lt _ (by decide)
  have hd : d.val < 256 := d.isLt
  have hi : 256 * (t.val % 16) + d.val < 4096 := by omega
  unfold term; rw [dif_pos hi]; unfold inter; rw [dif_pos hi]; unfold proj
  rw [blk3_apply m c t e he d h hi]
  simp only [blk0_apply m c t e he, blk1_apply m c t e he _ d (by omega), blk2_apply m c t e he _ d (by omega)]

/-! ## The running sum in the output block -/

theorem outsAt_congr (c : Dev nD) {n n' : ℕ} (hnn : n = n') (hn : n < cfg0.N) (hn' : n' < cfg0.N) :
    outsAt m c n hn = outsAt m c n' hn' := by subst hnn; rfl

/-- After tile s of expert e the output block holds, at (token p, output h), the running sum of the tiles 0..s. -/
theorem outsAt_apply (c : Dev nD) (e : Fin 8) : ∀ (s : ℕ) (hs : s < 16) (hn : 16 * e.val + s < cfg0.N) (p : Fin 1024) (h : Fin 2048),
    outsAt m c (16 * e.val + s) hn (ix3 0 p h) = partialSum (X m c) (GU m c) (DN m c) e p h s
  | 0, hs, hn, p, h => by
    have h0 : (16 * e.val + 0) % 16 = 0 := by omega
    refine (congrFun (outsAt_first m c ⟨16 * e.val + 0, hn⟩ h0) (ix3 0 p h)).trans ?_
    rw [outFirst_eq]
    refine (step_apply _ _ _ _ _ p h).trans ?_
    rw [zero_fill]
    show _ = 0 + ∑ d : Fin 256, term (X m c) (GU m c) (DN m c) e p h d.val
    refine congrArg (fun z => 0 + z) (Finset.sum_congr rfl fun d _ => ?_)
    refine (tile_term m c ⟨16 * e.val + 0, hn⟩ e (by show (16 * e.val + 0) / 16 = e.val; omega) p h d _ _ _ _ rfl rfl rfl rfl).trans ?_
    refine congrArg (term _ _ _ e p h) ?_
    show 256 * ((16 * e.val + 0) % 16) + d.val = d.val
    omega
  | s + 1, hs, hn, p, h => by
    have h0 : ¬(16 * e.val + (s + 1)) % 16 = 0 := by omega
    have hn' : 16 * e.val + s < cfg0.N := Nat.lt_of_le_of_lt (by omega) hn
    have ih := outsAt_apply c e s (by omega) hn' p h
    refine (congrFun (outsAt_later m c ⟨16 * e.val + (s + 1), hn⟩ h0) (ix3 0 p h)).trans ?_
    rw [outLater_eq]
    refine (step_apply _ _ _ _ _ p h).trans ?_
    show _ + _ = partialSum (X m c) (GU m c) (DN m c) e p h s + ∑ d : Fin 256, term (X m c) (GU m c) (DN m c) e p h (256 * (s + 1) + d.val)
    refine congrArg₂ (fun a b => a + b) ((congrFun (outsAt_congr m c (by show 16 * e.val + (s + 1) - 1 = 16 * e.val + s; omega) _ hn') _).trans ih)
      (Finset.sum_congr rfl fun d _ => ?_)
    refine (tile_term m c ⟨16 * e.val + (s + 1), hn⟩ e (by show (16 * e.val + (s + 1)) / 16 = e.val; omega) p h d _ _ _ _ rfl rfl rfl rfl).trans ?_
    refine congrArg (term _ _ _ e p h) ?_
    show 256 * ((16 * e.val + (s + 1)) % 16) + d.val = 256 * (s + 1) + d.val
    omega

/-! ## From blocks to the slab -/

/-- WHAT A WRITE-BACK WRITES: at an expert's last tile the output block is that expert's block of the layer's output. -/
theorem flushed_eq (c : Dev nD) (t : Fin cfg0.N) (hf : (cfg0.win 4).flush t = true) :
    (dats m 0 c).flushed 4 t = ((cfg0.win 4).blk t).view.read (Elt Ideal) (experts (X m c) (GU m c) (DN m c)) := by
  have h15 : t.val % 16 = 15 := (flush0_4 t).mp hf
  have hN : t.val < 128 := lt_of_lt_of_eq t.isLt (show cfg0.N = 128 from N_0)
  obtain ⟨-, -, -, -, -, -, -, -, -, -, -, -, e0, e1, e2⟩ := idx_facts t
  show (cfg0.win 4).cut (grid0.coords t) ((dats m 0 c).after 4 t) = _
  rw [after_4]
  funext j
  obtain ⟨u, p, h, rfl⟩ : ∃ (u : Fin 1) (p : Fin 1024) (h : Fin 2048), j = ix3 u p h := ⟨j 0, j 1, j 2, eq_ix3 j⟩
  obtain rfl : u = 0 := Subsingleton.elim _ _
  have he : 16 * (⟨t.val / 16, by omega⟩ : Fin 8).val + 15 = t.val := by show 16 * (t.val / 16) + 15 = t.val; omega
  show outsAt m c t.val t.isLt (ix3 0 p h) = experts (X m c) (GU m c) (DN m c) (((cfg0.win 4).blk t).view.emb (ix3 0 p h))
  rw [show ((cfg0.win 4).blk t).view.emb (ix3 0 p h) = ix3 (⟨t.val / 16, by omega⟩ : Fin 8) p h from by
    funext a; apply Fin.ext
    match a with
    | ⟨0, _⟩ => show win0_4.index t (0 : Fin 3) * 1 + 1 * 0 = t.val / 16; omega
    | ⟨1, _⟩ => show win0_4.index t (1 : Fin 3) * 1024 + 1 * p.val = p.val; omega
    | ⟨2, _⟩ => show win0_4.index t (2 : Fin 3) * 2048 + 1 * h.val = h.val; omega]
  rw [← partialSum_last]
  refine (congrFun (outsAt_congr m c he.symm t.isLt (by rw [he]; exact t.isLt)) _).trans ?_
  exact outsAt_apply m c ⟨t.val / 16, by omega⟩ 15 (by decide) _ p h

/-- An index of the slab is in point t's block iff each coordinate is in the block's range on its axis. -/
theorem mem_blk (t : Fin cfg0.N) (i : S8x1024x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v1).slice (win0_4.rect t)).set ↔ _
  rw [View.set_slice_whole, Rect.mem_set_unit]
  exact Iff.rfl

/-- Every index of the slab is in the block written back after its expert's last tile. -/
theorem cover (i : S8x1024x2048.Idx) : ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 2048 := (i 2).isLt
  have hlt : 16 * (i 0).val + 15 < cfg0.N := by rw [show cfg0.N = 128 from N_0]; omega
  refine ⟨⟨16 * (i 0).val + 15, hlt⟩, (flush0_4 _).mpr (by show (16 * (i 0).val + 15) % 16 = 15; omega), ?_⟩
  obtain ⟨-, -, -, -, -, -, -, -, -, -, -, -, e0, e1, e2⟩ := idx_facts ⟨16 * (i 0).val + 15, hlt⟩
  have e0' : win0_4.index ⟨16 * (i 0).val + 15, hlt⟩ (0 : Fin 3) = (16 * (i 0).val + 15) / 16 := e0
  rw [mem_blk]
  intro a
  match a with
  | ⟨0, _⟩ => show win0_4.index ⟨16 * (i 0).val + 15, hlt⟩ (0 : Fin 3) * 1 ≤ (i 0).val ∧ (i 0).val < win0_4.index ⟨16 * (i 0).val + 15, hlt⟩ (0 : Fin 3) * 1 + 1; omega
  | ⟨1, _⟩ => show win0_4.index ⟨16 * (i 0).val + 15, hlt⟩ (1 : Fin 3) * 1024 ≤ (i 1).val ∧ (i 1).val < win0_4.index ⟨16 * (i 0).val + 15, hlt⟩ (1 : Fin 3) * 1024 + 1024; omega
  | ⟨2, _⟩ => show win0_4.index ⟨16 * (i 0).val + 15, hlt⟩ (2 : Fin 3) * 2048 ≤ (i 2).val ∧ (i 2).val < win0_4.index ⟨16 * (i 0).val + 15, hlt⟩ (2 : Fin 3) * 2048 + 2048; omega

/-- THE RESULT SLAB after the run is the layer's output of the arrays the region found. -/
theorem slab_final (c : Dev nD) : (dats m 0 c).arrAt 4 cfg0.N = experts (X m c) (GU m c) (DN m c) :=
  (dats m 0 c).arrAt_eq_of_cover 4 (experts (X m c) (GU m c) (DN m c)) (fun t hf => flushed_eq m c t hf) cover

end Cert.KernelIdeal.Frame

end
-- ==== Proof.KI.Result.lean ====
/-
  The idealized kernel's run with its result named: the result matrix ends as the expert layer of the three argument
  arrays — the token matrix re-laid as one slab per expert, the layer, the result slab re-laid as a matrix.
-/
import proofs.«105637_j8332236554875_2_alg».proof.Proof.KI.Value

set_option maxRecDepth 16384

noncomputable section

namespace Cert.KernelIdeal.Frame

open Cert.KernelIdeal Cert.KernelIdeal.Gen Cert.Experts
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The token slab the region finds is the token matrix re-laid by the host line before the region. -/
theorem V_main_v0 (c : Dev nD) :
    V m c main_v0 = shapeCast S8x1024x2048 (m ((c : Thread nD τ).loc main_arg0)) shapeCasts_S8192x2048_S8x1024x2048 := by
  dsimp only [V, V0]
  simp only [hostOps0, List.flatten_cons, List.flatten_nil, List.append_nil]
  after_results
  rfl

/-- The result matrix after the run, as a function of the argument arrays. -/
theorem result_eq (c : Dev nD) : Vend m c (Proc.devRef .tc main_v2)
    = shapeCast S8192x2048 (experts (shapeCast S8x1024x2048 (m ((c : Thread nD τ).loc main_arg0)) shapeCasts_S8192x2048_S8x1024x2048)
        (m ((c : Thread nD τ).loc main_arg1)) (m ((c : Thread nD τ).loc main_arg2))) shapeCasts_S8x1024x2048_S8192x2048 := by
  rw [Vend_v2, slab_final]
  show shapeCast S8192x2048 (experts (V m c main_v0) (V m c main_arg1) (V m c main_arg2)) _ = _
  rw [V_main_v0, V_main_arg1, V_main_arg2]

/-- At the compiled mesh, on the extended reals, from any memory with zero counters: every weakly fair execution of
    @main terminates, nothing faulting, with the result matrix at the expert layer of the argument arrays and the
    argument arrays as launched. -/
theorem run_value : θ_run defs (onTc (τ := τ) (main (F := Ideal))) ⟨m, fun _ => 0, ρ⟩ (fun r => ∀ c : Dev nD,
      r.2.mem ((c.tc : Thread nD τ).loc main_v2)
        = shapeCast S8192x2048 (experts (shapeCast S8x1024x2048 (m ((c.tc : Thread nD τ).loc main_arg0)) shapeCasts_S8192x2048_S8x1024x2048)
            (m ((c.tc : Thread nD τ).loc main_arg1)) (m ((c.tc : Thread nD τ).loc main_arg2))) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v2 (by decide)).trans (result_eq m c),
      ((h c).2 main_arg0 (by decide)).trans ((Vend_arg0 m c).trans (V_main_arg0 m c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩) (run_main m ρ)

end Cert.KernelIdeal.Frame

end
-- ==== Proof.RefValue.lean ====
/-
  The reference program's result is the expert layer of the reshaped first argument, reshaped back.

  The reference reshapes the [8192, 2048] token array to [8, 1024, 2048], multiplies each expert's tokens with the
  expert's first weight matrix, cuts the 8192 result columns into the gate half (columns 0..4095) and the up half
  (columns 4096..8191), forms  up * (gate * (1 / (1 + exp (-gate))))  entry by entry, multiplies with the expert's second
  weight matrix and reshapes back to [8192, 2048]. On the extended reals 1 / (1 + exp (-g)) is the logistic function
  by its definition, the word 0x3F800000 is the number one, and a batched product read at an index is the inner
  product over the contracted axis; so the array between the two reshapes is the layer of the specification.
-/
import proofs.«105637_j8332236554875_2_alg».proof.Proof.Spec
import proofs.«105637_j8332236554875_2_alg».proof.Proof.Gen.ReferenceIdeal.Read

noncomputable section

namespace Cert.Experts

open Idealize.ShloMosaic Idealize.ShloMosaic.ValueIdx
open Cert.ReferenceIdeal Cert.ReferenceIdeal.Gen Cert.ReferenceIdeal.Read
open scoped BigOperators

/-- The f32 word 0x3F800000 is the number one. -/
theorem ofBits_one : Ideal.ofBits .f32 0x3F800000#32 = 1 := IdealRules.sign_bit.ideal_onePat .f32

/-! ## The index maps of the generated reading, at an index given by coordinates -/

theorem lidx1 (e : Fin 8) (t : Fin 1024) (j : Fin 8192) (k : Fin 2048) : lidx_main_v1 (ix3 e t j) k = ix3 e t k :=
  funext fun a => by match a with | ⟨0, _⟩ => rfl | ⟨1, _⟩ => rfl | ⟨2, _⟩ => rfl

theorem ridx1 (e : Fin 8) (t : Fin 1024) (j : Fin 8192) (k : Fin 2048) : ridx_main_v1 (ix3 e t j) k = ix3 e k j :=
  funext fun a => by match a with | ⟨0, _⟩ => rfl | ⟨1, _⟩ => rfl | ⟨2, _⟩ => rfl

theorem idx2 (e : Fin 8) (t : Fin 1024) (i : Fin 4096) :
    idx_main_v2 (ix3 e t i) = ix3 e t (⟨i.val, by omega⟩ : Fin 8192) :=
  funext fun a => by match a with | ⟨0, _⟩ => rfl | ⟨1, _⟩ => rfl | ⟨2, _⟩ => rfl

theorem idx3 (e : Fin 8) (t : Fin 1024) (i : Fin 4096) :
    idx_main_v3 (ix3 e t i) = ix3 e t (⟨4096 + i.val, by omega⟩ : Fin 8192) :=
  funext fun a => by match a with | ⟨0, _⟩ => rfl | ⟨1, _⟩ => rfl | ⟨2, _⟩ => rfl

theorem lidx6 (e : Fin 8) (t : Fin 1024) (h : Fin 2048) (i : Fin 4096) : lidx_main_v6 (ix3 e t h) i = ix3 e t i :=
  funext fun a => by match a with | ⟨0, _⟩ => rfl | ⟨1, _⟩ => rfl | ⟨2, _⟩ => rfl

theorem ridx6 (e : Fin 8) (t : Fin 1024) (h : Fin 2048) (i : Fin 4096) : ridx_main_v6 (ix3 e t h) i = ix3 e i h :=
  funext fun a => by match a with | ⟨0, _⟩ => rfl | ⟨1, _⟩ => rfl | ⟨2, _⟩ => rfl

/-! ## The stages -/

section
variable (a0 : (⟨S8192x2048, .f32⟩ : BufTy).Contents (Elt Ideal)) (a1 : (⟨S8x2048x8192, .f32⟩ : BufTy).Contents (Elt Ideal))
  (a2 : (⟨S8x4096x2048, .f32⟩ : BufTy).Contents (Elt Ideal))

/-- The first batched product at (e, t, j) is the first projection of the reshaped tokens. -/
theorem proj_read (e : Fin 8) (t : Fin 1024) (j : Fin 8192) :
    val_main_v1 (F := Ideal) a0 a1 (ix3 e t j) = proj (val_main_v0 (F := Ideal) a0) a1 e t j := by
  rw [val_main_v1_apply]
  unfold proj
  exact Finset.sum_congr rfl fun k _ => by rw [lidx1, ridx1]

/-- The array the second product takes, at (e, t, i): the gated unit of gate column i and up column 4096 + i. -/
theorem inter_read (e : Fin 8) (t : Fin 1024) (i : Fin 4096) :
    val_main_v5 (F := Ideal) a0 a1 (ix3 e t i) = inter (val_main_v0 (F := Ideal) a0) a1 e t i.val := by
  rw [inter, dif_pos i.isLt, val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, val_main_v3_apply, val_main_v2_apply, idx2, idx3, proj_read,
    proj_read]
  simp only [Ideal.mulf_def, Ideal.hostDivf_def, Ideal.addf_def, Ideal.hostUnary_exp_def, Ideal.hostNegf_def,
    Ideal.negf_def, Ideal.ofBits_def, ofBits_one]
  rfl

/-- The second batched product at an index is the layer's output entry. -/
theorem layer_read (j : S8x1024x2048.Idx) :
    val_main_v6 (F := Ideal) a0 a1 a2 j = experts (val_main_v0 (F := Ideal) a0) a1 a2 j := by
  obtain ⟨e, t, h, rfl⟩ : ∃ (e : Fin 8) (t : Fin 1024) (h : Fin 2048), j = ix3 e t h := ⟨j 0, j 1, j 2, eq_ix3 j⟩
  rw [val_main_v6_apply]
  show _ = ∑ i : Fin 4096, term (val_main_v0 (F := Ideal) a0) a1 a2 e t h i.val
  refine Finset.sum_congr rfl fun i _ => ?_
  rw [term, dif_pos i.isLt, lidx6, ridx6, inter_read]

/-- The reference's result as a stage of the generated reading: reshape in, the layer, reshape out. -/
theorem reference_value :
    val_main_v7 (F := Ideal) a0 a1 a2
      = shapeCast S8192x2048 (experts (shapeCast S8x1024x2048 a0 shapeCasts_S8192x2048_S8x1024x2048) a1 a2)
          shapeCasts_S8x1024x2048_S8192x2048 :=
  congrArg (fun y => shapeCast S8192x2048 y shapeCasts_S8x1024x2048_S8192x2048) (funext (layer_read a0 a1 a2))

end

/-! ## The reference's run -/

section Run

open Idealize.ShloMosaic.TcCoe Idealize.SL.Sem Idealize.ShloMosaic.StableHlo

/-- Every weakly fair execution of the reference ends with its result array equal to the layer of the reshaped first
    argument, reshaped back, and with the three arguments unchanged: the generated run, whose composed term is the
    last stage of the generated reading by unfolding, with that stage rewritten by `reference_value`. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = shapeCast S8192x2048
              (experts (shapeCast S8x1024x2048 (m ((c.tc : Thread nD τ).loc main_arg0)) shapeCasts_S8192x2048_S8x1024x2048)
                (m ((c.tc : Thread nD τ).loc main_arg1)) (m ((c.tc : Thread nD τ).loc main_arg2)))
              shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((val_main_v7_eq _ _ _).trans (reference_value _ _ _)), (h c).2⟩)
    (Cert.ReferenceIdeal.Value.run (F := Ideal) m ρ)

end Run

end Cert.Experts

end
-- ==== Proof.lean ====
/-
  The expert layer: a tiled kernel against its reference, on the extended reals.

  Eight experts; expert e maps its 1024 tokens x (width 2048) to
      out[e, t, h] = Σ_{i < 4096} up_i · (gate_i · logistic(gate_i)) · down[e, i, h],
      gate_i = Σ_k x[e, t, k] · W[e, k, i],      up_i = Σ_k x[e, t, k] · W[e, k, 4096 + i],
  W the expert's joint gate/up matrix (8192 columns). The reference computes this with two batched products around the
  gated unit, spelling the logistic function as 1 / (1 + exp(-g)). The kernel walks a grid (expert, inner tile of 256):
  at a tile it forms the 256 gate and up columns of the tile, the gated unit, and adds the product with the tile's 256
  rows of the down matrix to the expert's output block, which it zero-fills at the first tile and writes back after the
  last. On the extended reals a change of float format is the identity, the kernel's logistic IS 1 / (1 + exp(-g)), and
  the sixteen tile sums added in order from zero are the sum over all 4096 entries — a regrouping of one finite sum,
  which needs commutativity and associativity only, so the inputs' finiteness is never used.

  The kernel reads the joint gate/up matrix through two windows of one array (the gate tile and the up tile). For the
  frames this means the array's ownership is dealt between the two windows at the region's entry, half each, which
  suffices because input windows are only read; the modules under Proof/K (the kernel at the word level) and Proof/KI (its
  idealization) do this once each, the same text over the two programs.
-/
import proofs.«105637_j8332236554875_2_alg».proof.Defs
import proofs.«105637_j8332236554875_2_alg».proof.Proof.Gen.Kernel
import proofs.«105637_j8332236554875_2_alg».proof.Proof.Gen.Kernel.Skeleton
import proofs.«105637_j8332236554875_2_alg».proof.Proof.Gen.Kernel.Launch
import proofs.«105637_j8332236554875_2_alg».proof.Proof.Gen.Kernel.Points
import proofs.«105637_j8332236554875_2_alg».proof.Proof.Gen.KernelIdeal
import proofs.«105637_j8332236554875_2_alg».proof.Proof.Gen.KernelIdeal.Skeleton
import proofs.«105637_j8332236554875_2_alg».proof.Proof.Gen.KernelIdeal.Launch
import proofs.«105637_j8332236554875_2_alg».proof.Proof.Gen.KernelIdeal.Points
import proofs.«105637_j8332236554875_2_alg».proof.Proof.Gen.ReferenceIdeal
import proofs.«105637_j8332236554875_2_alg».proof.Proof.Gen.ReferenceIdeal.Run
import proofs.«105637_j8332236554875_2_alg».proof.Proof.Gen.ReferenceIdeal.Read
import proofs.«105637_j8332236554875_2_alg».proof.Proof.Gen.Pre_finite_inputs
import proofs.«105637_j8332236554875_2_alg».proof.Proof.K.Launch
import proofs.«105637_j8332236554875_2_alg».proof.Proof.KI.Result
import proofs.«105637_j8332236554875_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs to the end, faults nowhere, and leaves its three argument arrays as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- On the extended reals both programs end with the result matrix at the expert layer of the argument arrays: the
    kernel's sixteen ordered tile sums per expert and the reference's one sum over 4096 entries are one finite sum. -/
theorem algebraic : Cert.algebraic_KernelIdeal_ReferenceIdeal := by
  intro m ρ m' ρ' _ hagree
  refine ⟨_, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.Experts.reference_value _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
